-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S8192 : Shape := ⟨1, ![8192]⟩
abbrev S512x2048 : Shape := ⟨2, ![512, 2048]⟩
abbrev S512 : Shape := ⟨1, ![512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S8192, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512, .f32⟩
  | .local _ .vmem, ⟨5, _⟩ => ⟨S512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  inb_S512_S512_0 : ∀ a, (![0] : Fin 1 → Nat) a + S512.size a ≤ S512.size a
  h_S512 : 0 < S512.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8192 : Shape := ⟨1, ![8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S8192x2048_S8192_d1 : S8192x2048.ReducesTo [1] S8192
  h_S_ : 0 < S_.numel
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.RowSumSpec.lean ====
/-
  The function of the three argument arrays that both programs compute, stated once.

  For an activation matrix x of shape [8192, 2048], a weight matrix W of shape [2048, 2048] stored output-major
  (row o of W holds the weights of output feature o) and a bias b of shape [2048], the result is the vector of
  length 8192 whose entry r is

      Σ_o ( (Σ_k x[r, k] · W[o, k]) + b[o] ) · s,

  the sum over the 2048 output features of the affine map's value scaled by s, where s is the one float literal
  the two programs share (the single-precision word nearest to one tenth). The literal is kept as its word: both
  sides carry the same word, so its numerical value never matters.

  Over the extended reals this is a plain expression in + and ·; the two programs differ from it only in how they
  arrange the arrays (blocks of 512 rows, a transposed copy of W, a bias row broadcast over the rows), never in
  the order or grouping of the arithmetic, so no algebraic law beyond 0 + a = a is used anywhere.
-/
import Idealize.ShloMosaic.PureOps.Ideal
import Idealize.ShloMosaic.Lib.ValueIdx

noncomputable section

namespace Cert.RowSum

open Idealize.ShloMosaic Idealize.ShloMosaic.ValueIdx

/-- The scale factor as both programs spell it: one single-precision word, read at the extended reals. -/
abbrev scale : EReal := Ideal.ofBits .f32 0x3DCCCCCD#32

/-- The affine map's value for row `r` and output feature `o`: the inner product of row `r` of `x` with row `o` of
    `W`, plus the bias of feature `o`. -/
def affine (x : (⟨2, ![8192, 2048]⟩ : Shape).Idx → EReal) (w : (⟨2, ![2048, 2048]⟩ : Shape).Idx → EReal)
    (b : (⟨1, ![2048]⟩ : Shape).Idx → EReal) (r : Fin 8192) (o : Fin 2048) : EReal :=
  (∑ k : Fin 2048, x (ix2 r k) * w (ix2 o k)) + b (ix1 o)

/-- The result: entry `r` is the sum over the output features of the scaled affine value. -/
def rowSum (x : (⟨2, ![8192, 2048]⟩ : Shape).Idx → EReal) (w : (⟨2, ![2048, 2048]⟩ : Shape).Idx → EReal)
    (b : (⟨1, ![2048]⟩ : Shape).Idx → EReal) : (⟨1, ![8192]⟩ : Shape).Idx → EReal :=
  fun i => ∑ o : Fin 2048, affine x w b (i 0) o * scale

end Cert.RowSum

end
-- ==== Proof.RefRowSum.lean ====
/-
  The reference program's result is the specified row sum.

  The reference forms the product x · Wᵀ as one contraction over the input features (entry (r, o) is
  Σ_k x[r, k] · W[o, k]), adds the bias broadcast over the rows, multiplies every entry by the scale literal and
  sums each row, starting from zero. Read entry by entry over the extended reals, with the leading zero dropped
  (0 + a = a), this is the specification word for word: only the index functions have to be identified with
  the coordinates (r, k), (o, k) and o.
-/
import proofs.«164492_j82978768158971_1_alg».proof.Proof.Gen.ReferenceIdeal.Read
import proofs.«164492_j82978768158971_1_alg».proof.Proof.RowSumSpec

noncomputable section

namespace Cert.ReferenceIdeal.RefValue

open Cert.ReferenceIdeal Cert.ReferenceIdeal.Gen Cert.ReferenceIdeal.Read Idealize.ShloMosaic Idealize.ShloMosaic.ValueIdx

/-- Entry by entry, the reference's last stage is the row sum of the scaled affine values. -/
theorem result_eq (x : (⟨S8192x2048, .f32⟩ : BufTy).Contents (Elt Ideal)) (w : (⟨S2048x2048, .f32⟩ : BufTy).Contents (Elt Ideal))
    (b : (⟨S2048, .f32⟩ : BufTy).Contents (Elt Ideal)) :
    val_main_v6 (F := Ideal) x w b = Cert.RowSum.rowSum x w b := by
  funext i
  rw [val_main_v6_apply]
  show Ideal.ofBits .f32 0x00000000#32 + _ = _
  rw [Ideal.ofBits_zero_f32, zero_add]
  unfold Cert.RowSum.rowSum Cert.RowSum.affine
  refine Finset.sum_congr rfl fun o _ => ?_
  have el : ∀ k : Fin 2048, lidx_main_v0 (idx_main_v6 i o) k = ix2 (i 0) k := fun k =>
    funext fun a => Fin.ext (by match a with | ⟨0, _⟩ => rfl | ⟨1, _⟩ => rfl)
  have er : ∀ k : Fin 2048, ridx_main_v0 (idx_main_v6 i o) k = ix2 o k := fun k =>
    funext fun a => Fin.ext (by match a with | ⟨0, _⟩ => rfl | ⟨1, _⟩ => rfl)
  have eb : idx_main_v1 (idx_main_v2 (idx_main_v6 i o)) = ix1 o :=
    funext fun a => Fin.ext (by match a with | ⟨0, _⟩ => rfl)
  rw [val_main_v5_apply, val_main_v3_apply, val_main_v0_apply, val_main_v2_apply, val_main_v1_apply, val_main_v4_apply,
    val_main_cst_apply]
  simp only [el, er, eb, Ideal.mulf_def, Ideal.addf_def, Ideal.ofBits_def]
  rfl

end Cert.ReferenceIdeal.RefValue

end
-- ==== Proof.BlockPayload.lean ====
/-
  What the kernel body stores for one block of 512 rows, read entry by entry at the extended reals.

  The body loads a block x0 of 512 rows of the activations, the whole weight matrix x1 (output-major, [2048, 2048])
  and the bias as one row x2 of shape [1, 2048]; it transposes the weights, multiplies (an inner product over the
  2048 input features into a zero accumulator), adds the bias row to every row, scales every entry by the shared
  literal and sums each row over the 2048 output features. The format changes on the way are the identity on
  extended reals. So entry p of the stored vector is

      Σ_o ( (Σ_k x0[p, k] · x1[o, k]) + x2[0, o] ) · s.
-/
import proofs.«164492_j82978768158971_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The index of the [512, 2048] product over entry `p` of the row sums whose coordinate on the summed axis is `o`
    is `(p, o)`. -/
theorem lift_row (p : Fin 512) (o : Fin 2048) :
    (reduces_S512x2048_S512 : S512x2048.Reduces [1] S512).lift (ix1 p) o = ix2 p o :=
  funext fun c => Fin.ext (by match c with | ⟨0, _⟩ => rfl | ⟨1, _⟩ => rfl)

/-- The left operand's index for output entry `i` keeps the row of `i`. -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- and its column is the contracted coordinate. -/
theorem lhs_col (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q

/-- The right operand's index for output entry `i` has the contracted coordinate as its row -/
theorem rhs_row (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q

/-- and keeps the column of `i`. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The product of the block with the transposed weights, at `(p, o)`: the inner product of row `p` of the block
    with row `o` of the weights (the transposed matrix at `(k, o)` is the weights at `(o, k)`). -/
theorem product_apply (x0 : FVec Ideal S512x2048 .f32) (x1 : FVec Ideal S2048x2048 .bf16) (p : Fin 512) (o : Fin 2048) :
    FloatOps.matmul dot_S512x2048_S2048x2048_S512x2048_1_0_0_1_n_n none
        (truncf .bf16 x0 bitsLt_bf16_f32 : FVec Ideal S512x2048 .bf16)
        (transpose S2048x2048 [1, 0] (shapeCast S2048x2048 x1 shapeCasts_S2048x2048_S2048x2048) transposes_S2048x2048_p1_0_S2048x2048)
        (constant S512x2048 .f32 0x00000000#32) (ix2 p o)
      = ∑ k : Fin 2048, x0 (ix2 p k) * x1 (ix2 o k) := by
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p o)
      ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_col _ _).trans hk)
  have er : dot_S512x2048_S2048x2048_S512x2048_1_0_0_1_n_n.rhsIdx (ix2 p o)
      ((contrEquiv1 dot_S512x2048_S2048x2048_S512x2048_1_0_0_1_n_n 2048 rfl rfl).symm k) = ix2 k o :=
    funext fun a => Fin.ext (by
      match a with
      | ⟨0, _⟩ => exact (rhs_row _ _).trans hk
      | ⟨1, _⟩ => exact rhs_col _ _)
  rw [el, er, truncf_apply, transpose_ix2_apply, shapeCast_self]

/-- The bias row broadcast over the 512 rows, at `(p, o)`: the row's entry `o`. -/
theorem bias_apply (x2 : FVec Ideal S1x2048 .f32) (p : Fin 512) (o : Fin 2048) :
    broadcastTo S512x2048 (shapeCast S1x2048 x2 shapeCasts_S1x2048_S1x2048) broadcasts_S1x2048_S512x2048 (ix2 p o)
      = x2 (ix2 (0 : Fin 1) o) := by
  rw [broadcastTo_1b_ab_apply, shapeCast_self]

/-- Entry `p` of what the body stores: the sum over the output features of the scaled affine value. -/
theorem payload_apply (x0 : FVec Ideal S512x2048 .f32) (x1 : FVec Ideal S2048x2048 .bf16) (x2 : FVec Ideal S1x2048 .f32) (p : Fin 512) :
    k0_pay1 (F := Ideal) x0 x1 x2 (ix1 p)
      = ∑ o : Fin 2048, ((∑ k : Fin 2048, x0 (ix2 p k) * x1 (ix2 o k)) + x2 (ix2 (0 : Fin 1) o)) * Ideal.ofBits .f32 0x3DCCCCCD#32 := by
  unfold k0_pay1
  refine (Ideal.multiReduction_add_single _ 0x00000000#32 reduces_S512x2048_S512 (.inl rfl) rfl (ix1 p)).trans ?_
  show ∑ o : Fin 2048, _ = ∑ o : Fin 2048, _
  refine Finset.sum_congr rfl fun (o : Fin 2048) _ => ?_
  rw [lift_row p o]
  show (FloatOps.matmul _ _ _ _ _ (ix2 p o) + broadcastTo S512x2048 _ _ (ix2 p o)) * Ideal.ofBits .f32 0x3DCCCCCD#32 = _
  rw [product_apply x0 x1 p o, bias_apply x2 p o]

end Cert.KernelIdeal.Block

end
-- ==== Proof.WholeArray.lean ====
/-
  From blocks to the whole result array.

  The grid has 16 points. Point t is handed rows 512·t … 512·t + 511 of the activations, the whole weight matrix
  and the whole bias row, and writes back entries 512·t … 512·t + 511 of the result. The weight matrix and the bias
  row the region finds are the arguments themselves up to a change of float format (the identity on extended
  reals) and a reshape of the bias from [2048] to [1, 2048].

  So what point t writes back is block t of the specified row sum of the three arguments: entry p of the block's
  payload depends on row p of the activations' block, which is row 512·t + p of the activations. The 16 blocks
  cover the result (entry i lies in block i / 512), hence the array after the run is the row sum everywhere.
-/
import proofs.«164492_j82978768158971_1_alg».proof.Proof.Gen.KernelIdeal.Value
import proofs.«164492_j82978768158971_1_alg».proof.Proof.BlockPayload
import proofs.«164492_j82978768158971_1_alg».proof.Proof.RowSumSpec
import Idealize.ShloMosaic.Lib.StableHlo.Run

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The result array as one function of the argument arrays as launched. -/
abbrev result (c : Dev nD) : S8192.Idx → EReal :=
  Cert.RowSum.rowSum (m ((c : Thread nD τ).loc main_arg0)) (m ((c : Thread nD τ).loc main_arg1)) (m ((c : Thread nD τ).loc main_arg2))

/-! ## The arrays the region finds -/

/-- The weights the region finds are the weight argument: the host's change of format is the identity. -/
theorem weights_at_entry (c : Dev nD) :
    (V m c main_call0_v0 : S2048x2048.Idx → EReal) = (m ((c : Thread nD τ).loc main_arg1) : S2048x2048.Idx → EReal) := by
  dsimp only [Gen.V, Gen.hostOps0]
  after_results
  rfl

/-- The bias row the region finds is the bias argument reshaped from [2048] to [1, 2048]. -/
theorem bias_at_entry (c : Dev nD) :
    (V m c main_call0_v1 : S1x2048.Idx → EReal)
      = shapeCast S1x2048 (m ((c : Thread nD τ).loc main_arg2) : S2048.Idx → EReal) shapeCasts_S2048_S1x2048 := by
  dsimp only [Gen.V, Gen.hostOps0]
  after_results
  rfl

/-! ## The blocks at a point -/

/-- The printed index maps over the grid: the activations' and the result's block index is the point, the weights'
    and the bias row's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- Row `p` of the activations' block at point `t` is row `512·t + p` of the activations. -/
theorem rows_block (c : Dev nD) (t : Fin cfg0.N) (p : Fin 512) (k : Fin 2048) (r : Fin 8192) (hr : r.val = t.val * 512 + p.val) :
    (iblk m c 0 t : S512x2048.Idx → EReal) (ix2 p k) = (m ((c : Thread nD τ).loc main_arg0) : S8192x2048.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The weights' block at every point is the whole weight argument. -/
theorem weights_block (c : Dev nD) (t : Fin cfg0.N) (o k : Fin 2048) :
    (iblk m c 1 t : S2048x2048.Idx → EReal) (ix2 o k) = (m ((c : Thread nD τ).loc main_arg1) : S2048x2048.Idx → EReal) (ix2 o k) := by
  obtain ⟨-, -, e0, e1, -⟩ := idx_facts t
  unfold iblk
  rw [View.read_apply]
  show (V m c main_call0_v0 : S2048x2048.Idx → EReal) _ = _
  rw [weights_at_entry]
  refine congrArg _ (funext fun a => Fin.ext ?_)
  match a with
  | ⟨0, _⟩ => show win0_1.index t (0 : Fin 2) * 2048 + 1 * o.val = o.val; omega
  | ⟨1, _⟩ => show win0_1.index t (1 : Fin 2) * 2048 + 1 * k.val = k.val; omega

/-- The bias block at every point is the bias argument laid out as one row. -/
theorem bias_block (c : Dev nD) (t : Fin cfg0.N) (o : Fin 2048) :
    (iblk m c 2 t : S1x2048.Idx → EReal) (ix2 (0 : Fin 1) o) = (m ((c : Thread nD τ).loc main_arg2) : S2048.Idx → EReal) (ix1 o) := by
  obtain ⟨-, -, -, -, e0, e1, -⟩ := idx_facts t
  unfold iblk
  rw [View.read_apply]
  show (V m c main_call0_v1 : S1x2048.Idx → EReal) _ = _
  rw [bias_at_entry]
  refine Eq.trans (congrArg _ (funext fun a => Fin.ext ?_)) (shapeCast_a_1a_apply _ shapeCasts_S2048_S1x2048 (0 : Fin 1) o)
  match a with
  | ⟨0, _⟩ => show win0_2.index t (0 : Fin 2) * 1 + 1 * 0 = 0; omega
  | ⟨1, _⟩ => show win0_2.index t (1 : Fin 2) * 2048 + 1 * o.val = o.val; omega

/-! ## What a point writes back -/

/-- Over any three blocks that read the arrays `x`, `w`, `b` as a point's blocks do — row `p` of the first is row `r`
    of `x`, the second is `w`, the third is `b` as a row — entry `p` of the payload is entry `r` of the row sum. -/
theorem block_value (x0 : FVec Ideal S512x2048 .f32) (x1 : FVec Ideal S2048x2048 .bf16) (x2 : FVec Ideal S1x2048 .f32)
    (x : S8192x2048.Idx → EReal) (w : S2048x2048.Idx → EReal) (b : S2048.Idx → EReal) (p : Fin 512) (r : Fin 8192)
    (h0 : ∀ k : Fin 2048, x0 (ix2 p k) = x (ix2 r k))
    (h1 : ∀ o k : Fin 2048, x1 (ix2 o k) = w (ix2 o k))
    (h2 : ∀ o : Fin 2048, x2 (ix2 (0 : Fin 1) o) = b (ix1 o)) :
    k0_pay1 (F := Ideal) x0 x1 x2 (ix1 p) = Cert.RowSum.rowSum x w b (ix1 r) := by
  rw [payload_apply]
  unfold Cert.RowSum.rowSum Cert.RowSum.affine
  simp only [h0, h1, h2]

/-- WHAT POINT `t` WRITES BACK is block `t` of the row sum of the arguments. -/
theorem flushed_eq (c : Dev nD) (t : Fin cfg0.N) :
    (dats m 0 c).flushed 3 t = ((cfg0.win 3).blk t).view.read (Elt Ideal) (result m c) := by
  have hN : cfg0.N = 16 := N_0
  have ht : t.val < 16 := hN ▸ t.isLt
  obtain ⟨-, -, -, -, -, -, e3⟩ := idx_facts t
  rw [Value.flushed3]
  unfold out0_3
  rw [View.canon_unit_zero hz1]
  simp only [View.ld_unit_zero (S := S512x2048) hz2, View.ld_unit_zero (S := S2048x2048) hz2, View.ld_unit_zero (S := S1x2048) hz2]
  refine funext fun (j : S512.Idx) => ?_
  obtain ⟨p, rfl⟩ : ∃ p : Fin 512, j = ix1 p := ⟨j 0, eq_ix1 j⟩
  show k0_pay1 (F := Ideal) (iblk m c 0 t) (iblk m c 1 t) (iblk m c 2 t) (ix1 p) = result m c (((cfg0.win 3).blk t).view.emb (ix1 p))
  refine (block_value (iblk m c 0 t) (iblk m c 1 t) (iblk m c 2 t)
    (m ((c : Thread nD τ).loc main_arg0)) (m ((c : Thread nD τ).loc main_arg1)) (m ((c : Thread nD τ).loc main_arg2))
    p ⟨t.val * 512 + p.val, by have := p.isLt; omega⟩
    (fun k => rows_block m c t p k ⟨t.val * 512 + p.val, by have := p.isLt; omega⟩ rfl)
    (fun o k => weights_block m c t o k) (fun o => bias_block m c t o)).trans ?_
  refine congrArg (result m c) (funext fun a => Fin.ext ?_)
  match a with
  | ⟨0, _⟩ => show t.val * 512 + p.val = win0_3.index t (0 : Fin 1) * 512 + 1 * p.val; omega

/-! ## The cover and the run -/

/-- An entry of the result is in point `t`'s block iff it lies in the block's range. -/
theorem mem_blk (t : Fin cfg0.N) (i : S8192.Idx) :
    i ∈ ((cfg0.win 3).blk t).view.set ↔ ∀ a : Fin 1, win0_3.index t a * S512.size a ≤ (i a).val ∧ (i a).val < win0_3.index t a * S512.size a + S512.size a := by
  show i ∈ ((View.whole main_v0).slice (win0_3.rect t)).set ↔ _
  rw [View.set_slice_whole, Rect.mem_set_unit]
  exact Iff.rfl

/-- Every entry of the result is in some point's block: entry `i` in block `i / 512`. -/
theorem cover (i : S8192.Idx) : ∃ t : Fin cfg0.N, (cfg0.win 3).flush t = true ∧ i ∈ ((cfg0.win 3).blk t).view.set := by
  have hN : cfg0.N = 16 := N_0
  have hi : (i 0).val < 8192 := (i 0).isLt
  have hq : (i 0).val / 512 < cfg0.N := by rw [hN]; omega
  obtain ⟨-, -, -, -, -, -, e3⟩ := idx_facts ⟨(i 0).val / 512, hq⟩
  refine ⟨⟨(i 0).val / 512, hq⟩, flush0_3 _, ?_⟩
  rw [mem_blk]
  intro a
  match a with
  | ⟨0, _⟩ =>
    show win0_3.index ⟨(i 0).val / 512, hq⟩ (0 : Fin 1) * 512 ≤ (i 0).val
      ∧ (i 0).val < win0_3.index ⟨(i 0).val / 512, hq⟩ (0 : Fin 1) * 512 + 512
    rw [e3]
    show (i 0).val / 512 * 512 ≤ (i 0).val ∧ (i 0).val < (i 0).val / 512 * 512 + 512
    omega

/-- THE ARRAY after the run is the row sum of the arguments. -/
theorem final (c : Dev nD) : (dats m 0 c).arrAt 3 cfg0.N = result m c :=
  (dats m 0 c).arrAt_eq_of_cover 3 (result m c) (fun t _ => flushed_eq m c t) cover

/-- The kernel's run, read: the result array at the row sum of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A fused linear layer with a scaled row sum, against its plain reference.

  Both programs take activations x : [8192, 2048], weights W : [2048, 2048] (row o holds output feature o) and a bias
  b : [2048], and return the vector whose entry r is

      Σ_o ( (Σ_k x[r, k] · W[o, k]) + b[o] ) · s,        s the one float literal both share.

  The kernel works on 16 blocks of 512 rows: it multiplies a block by the transposed weights into a zero
  accumulator, adds the bias row, scales and sums each row over the output features. The reference contracts x
  with W over the input features in one operation, adds the broadcast bias, scales and reduces each row from zero.
  Over the extended reals every change of float format is the identity, a product into a zero accumulator and a
  reduction from zero are plain finite sums, and the two sides perform the same additions and multiplications on
  the same operands in the same grouping; they differ only in the layout of the arrays. So the results agree entry
  by entry for all extended-real inputs, finite or not, and the finiteness precondition is never opened.

  The pieces: the row sum as one function of the arguments (Proof/RowSumSpec.lean); the reference's last stage is
  that function (Proof/RefRowSum.lean); one block's payload entry by entry (Proof/BlockPayload.lean); each point's
  written block is a block of that function and the blocks cover the result (Proof/WholeArray.lean). The three
  programs terminate without fault and leave their arguments unchanged; the idealized kernel is the kernel's own
  text read over the extended reals, with nothing rewritten.
-/
import proofs.«164492_j82978768158971_1_alg».proof.Defs
import proofs.«164492_j82978768158971_1_alg».proof.Proof.Gen.Kernel
import proofs.«164492_j82978768158971_1_alg».proof.Proof.Gen.Kernel.Skeleton
import proofs.«164492_j82978768158971_1_alg».proof.Proof.Gen.Kernel.Launch
import proofs.«164492_j82978768158971_1_alg».proof.Proof.Gen.Kernel.Points
import proofs.«164492_j82978768158971_1_alg».proof.Proof.Gen.Kernel.Frame
import proofs.«164492_j82978768158971_1_alg».proof.Proof.Gen.KernelIdeal
import proofs.«164492_j82978768158971_1_alg».proof.Proof.Gen.KernelIdeal.Skeleton
import proofs.«164492_j82978768158971_1_alg».proof.Proof.Gen.KernelIdeal.Launch
import proofs.«164492_j82978768158971_1_alg».proof.Proof.Gen.KernelIdeal.Points
import proofs.«164492_j82978768158971_1_alg».proof.Proof.Gen.KernelIdeal.Frame
import proofs.«164492_j82978768158971_1_alg».proof.Proof.Gen.ReferenceIdeal
import proofs.«164492_j82978768158971_1_alg».proof.Proof.Gen.Pre_finite_inputs
import proofs.«164492_j82978768158971_1_alg».proof.Proof.Gen.KernelIdeal.Value
import proofs.«164492_j82978768158971_1_alg».proof.Proof.Gen.ReferenceIdeal.Run
import proofs.«164492_j82978768158971_1_alg».proof.Proof.Gen.ReferenceIdeal.Read
import proofs.«164492_j82978768158971_1_alg».proof.Proof.RowSumSpec
import proofs.«164492_j82978768158971_1_alg».proof.Proof.RefRowSum
import proofs.«164492_j82978768158971_1_alg».proof.Proof.BlockPayload
import proofs.«164492_j82978768158971_1_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs to the end without fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals, so there is nothing to preserve. -/
theorem preserves : Cert.preserves_Kernel_KernelIdeal := trivial

/-- From memories that agree on the three arguments, both runs end with the result at the row sum of the scaled
    affine values: the kernel's block by block, the reference's in one piece. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
